-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32x128 : Shape := ⟨3, ![10000, 32, 128]⟩
abbrev S10000x128 : Shape := ⟨2, ![10000, 128]⟩
abbrev S10000x384 : Shape := ⟨2, ![10000, 384]⟩
abbrev S128x128 : Shape := ⟨2, ![128, 128]⟩
abbrev S_ : Shape := ⟨0, ![]⟩

class Facts : Prop where
  bcast_S_S10000x32x128 : S_.BroadcastsInDim S10000x32x128 (![] : Fin 0 → Fin S10000x32x128.rank)
  reducesTo_S10000x32x128_S_d0_1_2 : S10000x32x128.ReducesTo [0, 1, 2] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S10000x384 : S_.BroadcastsInDim S10000x384 (![] : Fin 0 → Fin S10000x384.rank)
  reducesTo_S10000x384_S_d0_1 : S10000x384.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S10000x384 1) : IVec S_ 1 :=
  let main_c_5 : IVec S_ 1 := constantI S_ 1 1#1
  let main_v17 : IVec S_ 1 := (fun x v => Host.reduce IntOp.andi x v reducesTo_S10000x384_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x32x128 .f32) (main_arg1 : FVec F S10000x32x128 .f32) (main_arg2 : FVec F S10000x128 .f32) (main_arg3 : FVec F S10000x384 .f32) (main_arg4 : FVec F S128x128 .f32) : IVec S_ 1 :=
  let main_v0 : FVec F S10000x32x128 .f32 := Host.absf main_arg0
  let main_cst : FVec F S_ .f32 := constant S_ .f32 0x7F800000#32
  let main_v1 : FVec F S10000x32x128 .f32 := broadcastInDim S10000x32x128 ![] bcast_S_S10000x32x128 main_cst
  let main_v2 : IVec S10000x32x128 1 := cmpf .olt main_v0 main_v1
  let main_c : IVec S_ 1 := constantI S_ 1 1#1
  let main_v3 : IVec S_ 1 := (fun x v => Host.reduce IntOp.andi x v reducesTo_S10000x32x128_S_d0_1_2 h_S_) main_v2 main_c
  let main_v4 : FVec F S10000x32x128 .f32 := Host.absf main_arg1
  let main_cst_0 : FVec F S_ .f32 := constant S_ .f32 0x7F800000#32
  let main_v5 : FVec F S10000x32x128 .f32 := broadcastInDim S10000x32x128 ![] bcast_S_S10000x32x128 main_cst_0
  let main_v6 : IVec S10000x32x128 1 := cmpf .olt main_v4 main_v5
  let main_c_1 : IVec S_ 1 := constantI S_ 1 1#1
  let main_v7 : IVec S_ 1 := (fun x v => Host.reduce IntOp.andi x v reducesTo_S10000x32x128_S_d0_1_2 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x384 .f32 := Host.absf main_arg3
  let main_cst_4 : FVec F S_ .f32 := constant S_ .f32 0x7F800000#32
  let main_v15 : FVec F S10000x384 .f32 := broadcastInDim S10000x384 ![] bcast_S_S10000x384 main_cst_4
  let main_v16 : IVec S10000x384 1 := cmpf .olt main_v14 main_v15
  fn_part1 (F := F) main_arg4 main_v13 main_v16
-- ==== Kernel.lean ====
abbrev S10000x32x128 : Shape := ⟨3, ![10000, 32, 128]⟩
abbrev S10000x128 : Shape := ⟨2, ![10000, 128]⟩
abbrev S10000x384 : Shape := ⟨2, ![10000, 384]⟩
abbrev S128x128 : Shape := ⟨2, ![128, 128]⟩
abbrev S320000x128 : Shape := ⟨2, ![320000, 128]⟩
abbrev S12800x128 : Shape := ⟨2, ![12800, 128]⟩
abbrev S400x128 : Shape := ⟨2, ![400, 128]⟩
abbrev S400x384 : Shape := ⟨2, ![400, 384]⟩
abbrev S400x32x128 : Shape := ⟨3, ![400, 32, 128]⟩
abbrev S400x1x128 : Shape := ⟨3, ![400, 1, 128]⟩

abbrev nBuf : Space → Nat
  | .hbm => 9
  | .vmem => 13
  | .smem => 0
  | _ => 0

abbrev bufTy : (tb : Table) → Fin (tcTables nBuf tb) → BufTy
  | .hbm, ⟨0, _⟩ => ⟨S10000x32x128, .f32⟩
  | .hbm, ⟨1, _⟩ => ⟨S10000x32x128, .f32⟩
  | .hbm, ⟨2, _⟩ => ⟨S10000x128, .f32⟩
  | .hbm, ⟨3, _⟩ => ⟨S10000x384, .f32⟩
  | .hbm, ⟨4, _⟩ => ⟨S128x128, .f32⟩
  | .hbm, ⟨5, _⟩ => ⟨S320000x128, .f32⟩
  | .hbm, ⟨6, _⟩ => ⟨S320000x128, .f32⟩
  | .hbm, ⟨7, _⟩ => ⟨S10000x128, .f32⟩
  | .hbm, ⟨8, _⟩ => ⟨S10000x128, .f32⟩
  | .local _ .vmem, ⟨0, _⟩ => ⟨S12800x128, .f32⟩
  | .local _ .vmem, ⟨1, _⟩ => ⟨S12800x128, .f32⟩
  | .local _ .vmem, ⟨2, _⟩ => ⟨S12800x128, .f32⟩
  | .local _ .vmem, ⟨3, _⟩ => ⟨S12800x128, .f32⟩
  | .local _ .vmem, ⟨4, _⟩ => ⟨S400x128, .f32⟩
  | .local _ .vmem, ⟨5, _⟩ => ⟨S400x128, .f32⟩
  | .local _ .vmem, ⟨6, _⟩ => ⟨S400x384, .f32⟩
  | .local _ .vmem, ⟨7, _⟩ => ⟨S400x384, .f32⟩
  | .local _ .vmem, ⟨8, _⟩ => ⟨S128x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | _, _ => ⟨S10000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S10000x32x128_S320000x128 : S10000x32x128.ShapeCasts S320000x128
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  inb_S128x128_S128x128_0_0 : ∀ a, (![0, 0] : Fin 2 → Nat) a + S128x128.size a ≤ S128x128.size a
  h_S128x128 : 0 < S128x128.numel
  shapeCasts_S12800x128_S400x32x128 : S12800x128.ShapeCasts S400x32x128
  inb_S400x128_S400x128_0_0 : ∀ a, (![0, 0] : Fin 2 → Nat) a + S400x128.size a ≤ S400x128.size a
  h_S400x128 : 0 < S400x128.numel
  shapeCasts_S400x128_S400x1x128 : S400x128.ShapeCasts S400x1x128
  broadcasts_S400x1x128_S400x32x128 : S400x1x128.Broadcasts S400x32x128
  reduces_S400x32x128_S400x128 : S400x32x128.Reduces [1] S400x128
  inb_S400x384_S400x384_0_0 : ∀ a, (![0, 0] : Fin 2 → Nat) a + S400x384.size a ≤ S400x384.size a
  h_S400x384 : 0 < S400x384.numel
  slices_S400x384_o0_0_S400x128 : S400x384.Slices ![0, 0] S400x128
  slices_S400x384_o0_128_S400x128 : S400x384.Slices ![0, 128] S400x128
  slices_S400x384_o0_256_S400x128 : S400x384.Slices ![0, 256] S400x128
  dot_S12800x128_S128x128_S12800x128_1_1_0_0_n_n_wf : DotDims.WF S12800x128 S128x128 S12800x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S320000x128.size a
  hwx0_0 : ∀ i : grid0.Coords, EltTy.bits .f32 = 32 ∨ (Rect.block (s := S320000x128) S12800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x128.size a ≤ S320000x128.size a
  hwx0_1 : ∀ i : grid0.Coords, EltTy.bits .f32 = 32 ∨ (Rect.block (s := S320000x128) S12800x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x384.size a ≤ S10000x384.size a
  hwx0_3 : ∀ i : grid0.Coords, EltTy.bits .f32 = 32 ∨ (Rect.block (s := S10000x384) S400x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S12800x128_S128x128_S12800x128_1_1_0_0_n_n : DotDims S12800x128 S128x128 S12800x128 where
  lhsContracting := [1]
  rhsContracting := [1]
  lhsNonContracting := [0]
  rhsNonContracting := [0]
  lhsBatch := []
  rhsBatch := []
  wf := dot_S12800x128_S128x128_S12800x128_1_1_0_0_n_n_wf

abbrev win0_0 : Pipeline.Window sig grid0 :=
  Pipeline.Window.ofSpec (Memref.whole main_v0) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x32x128 : Shape := ⟨3, ![10000, 32, 128]⟩
abbrev S10000x128 : Shape := ⟨2, ![10000, 128]⟩
abbrev S10000x384 : Shape := ⟨2, ![10000, 384]⟩
abbrev S128x128 : Shape := ⟨2, ![128, 128]⟩
abbrev S320000x128 : Shape := ⟨2, ![320000, 128]⟩
abbrev S10000x4096 : Shape := ⟨2, ![10000, 4096]⟩
abbrev S1x10000x1x128 : Shape := ⟨4, ![1, 10000, 1, 128]⟩
abbrev S1x10000x32x128 : Shape := ⟨4, ![1, 10000, 32, 128]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S10000x32x128, .f32⟩
  | .hbm, ⟨1, _⟩ => ⟨S10000x32x128, .f32⟩
  | .hbm, ⟨2, _⟩ => ⟨S10000x128, .f32⟩
  | .hbm, ⟨3, _⟩ => ⟨S10000x384, .f32⟩
  | .hbm, ⟨4, _⟩ => ⟨S128x128, .f32⟩
  | .hbm, ⟨5, _⟩ => ⟨S320000x128, .f32⟩
  | .hbm, ⟨6, _⟩ => ⟨S128x128, .f32⟩
  | .hbm, ⟨7, _⟩ => ⟨S320000x128, .f32⟩
  | .hbm, ⟨8, _⟩ => ⟨S10000x4096, .f32⟩
  | .hbm, ⟨9, _⟩ => ⟨S1x10000x1x128, .f32⟩
  | .hbm, ⟨10, _⟩ => ⟨S1x10000x32x128, .f32⟩
  | .hbm, ⟨11, _⟩ => ⟨S10000x4096, .f32⟩
  | .hbm, ⟨12, _⟩ => ⟨S10000x4096, .f32⟩
  | .hbm, ⟨13, _⟩ => ⟨S10000x4096, .f32⟩
  | .hbm, ⟨14, _⟩ => ⟨S10000x4096, .f32⟩
  | .hbm, ⟨15, _⟩ => ⟨S_, .f32⟩
  | .hbm, ⟨16, _⟩ => ⟨S10000x4096, .f32⟩
  | .hbm, ⟨17, _⟩ => ⟨S10000x4096, .f32⟩
  | .hbm, ⟨18, _⟩ => ⟨S_, .f32⟩
  | .hbm, ⟨19, _⟩ => ⟨S10000x4096, .f32⟩
  | .hbm, ⟨20, _⟩ => ⟨S10000x4096, .f32⟩
  | .hbm, ⟨21, _⟩ => ⟨S10000x32x128, .f32⟩
  | .hbm, ⟨22, _⟩ => ⟨S10000x32x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | _, _ => ⟨S10000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  shapeCasts_S10000x32x128_S320000x128 : S10000x32x128.ShapeCasts S320000x128
  transposes_S128x128_S128x128_1_0 : S128x128.Transposes [1, 0] S128x128
  shapeCasts_S320000x128_S10000x4096 : S320000x128.ShapeCasts S10000x4096
  shapeCasts_S10000x128_S1x10000x1x128 : S10000x128.ShapeCasts S1x10000x1x128
  bcast_S1x10000x1x128_S1x10000x32x128_0_1_2_3 : S1x10000x1x128.BroadcastsInDim S1x10000x32x128 (![0, 1, 2, 3] : Fin 4 → Fin S1x10000x32x128.rank)
  shapeCasts_S1x10000x32x128_S10000x4096 : S1x10000x32x128.ShapeCasts S10000x4096
  bcast_S_S10000x4096 : S_.BroadcastsInDim S10000x4096 (![] : Fin 0 → Fin S10000x4096.rank)
  shapeCasts_S10000x4096_S10000x32x128 : S10000x4096.ShapeCasts S10000x32x128
  reducesTo_S10000x32x128_S10000x128_d1 : S10000x32x128.ReducesTo [1] S10000x128
  h_S_ : 0 < S_.numel
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S_S10000x128 : S_.BroadcastsInDim S10000x128 (![] : Fin 0 → Fin S10000x128.rank)
  dot_S320000x128_S128x128_S320000x128_1_0_0_1_n_n_wf : DotDims.WF S320000x128 S128x128 S320000x128 [1] [0] [0] [1] [] []

variable [Facts₀]

def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf

class Facts : Prop extends Facts₀ where

variable [Facts]
-- ==== Proof.Spec.lean ====
/-
  The child-sum tree-LSTM cell, as ONE function of its five argument arrays on the extended reals.

  For node n (of 10000), child k (of 32) and lane h (of 128):
    pre n k h = (sum over j of nh[n,k,j] * U[h,j]) + fin[n,h]          -- the forget gate's pre-activation
    c[n,h]    = gate(iou[n,h]) * tanh(iou[n,256+h]) + sum over k of gate(pre n k h) * nc[n,k,h]
    h[n,h]    = gate(iou[n,128+h]) * tanh(c[n,h])
  where gate is the logistic function.  One program spells the gate 1/2 * tanh(x/2) + 1/2, the other
  1 / (1 + exp(-x)); on the extended reals the two are the same function, at the two infinities too
  (both give 0 at -inf and 1 at +inf), so no finiteness of the inputs is needed to join them.
-/
import Idealize.ShloMosaic.PureOps.Ideal
import Idealize.ShloMosaic.PureOps.Ideal.Laws
import Idealize.ShloMosaic.Lib.ValueIdx

noncomputable section

namespace Cert.TreeCell

open Idealize.ShloMosaic Idealize.ShloMosaic.ValueIdx

/-! ## The two float constants the programs spell -/

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-! ## The gate -/

/-- The logistic gate in its hyperbolic-tangent spelling, over the pattern of 0.5. -/
def gate (x : EReal) : EReal :=
  Ideal.ofBits .f32 0x3F000000#32 * Ideal.tanh (Ideal.ofBits .f32 0x3F000000#32 * x) + Ideal.ofBits .f32 0x3F000000#32

/-- On the reals, 1/2 * tanh(r/2) + 1/2 = 1 / (1 + exp(-r)): with a = exp(r/2), both are a^2 / (a^2 + 1). -/
theorem half_tanh_half (r : ℝ) : 1 / 2 * Real.tanh (1 / 2 * r) + 1 / 2 = (1 + Real.exp (-r))⁻¹ := by
  have ha : 0 < Real.exp (1 / 2 * r) := Real.exp_pos _
  have hinv : Real.exp (-(1 / 2 * r)) = (Real.exp (1 / 2 * r))⁻¹ := Real.exp_neg _
  have hsq : Real.exp (-r) = (Real.exp (1 / 2 * r))⁻¹ * (Real.exp (1 / 2 * r))⁻¹ := by
    rw [← hinv, ← Real.exp_add]; congr 1; ring
  rw [Real.tanh_eq_sinh_div_cosh, Real.sinh_eq, Real.cosh_eq, hinv, hsq]
  field_simp
  ring

/-- The gate is the logistic function on every extended real: 0 at -inf, 1 at +inf, and the real identity between. -/
theorem gate_eq_logistic (x : EReal) : gate x = Ideal.logistic x := by
  unfold gate
  rw [ofBits_half]
  induction x using EReal.rec with
  | bot =>
    rw [EReal.coe_mul_bot_of_pos (by norm_num), Ideal.tanh_bot, Ideal.logistic_bot]
    rw [mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, half_tanh_half]

/-- The quotient spelling, over the pattern of 1.0, is the gate. -/
theorem quotient_eq_gate (x : EReal) :
    Ideal.div (Ideal.ofBits .f32 0x3F800000#32) (Ideal.ofBits .f32 0x3F800000#32 + Ideal.exp (-x)) = gate x := by
  rw [ofBits_one, gate_eq_logistic]; rfl

/-! ## The cell -/

/-- Lane h of the first, second and third 128-wide band of the 384 gate columns. -/
abbrev band0 (h : Fin 128) : Fin 384 := ⟨h.val, by have := h.isLt; omega⟩
abbrev band1 (h : Fin 128) : Fin 384 := ⟨h.val + 128, by have := h.isLt; omega⟩
abbrev band2 (h : Fin 128) : Fin 384 := ⟨h.val + 256, by have := h.isLt; omega⟩

/-- The forget gate's pre-activation for child k of node n at lane h. -/
def forgetPre (nh : (⟨3, ![10000, 32, 128]⟩ : Shape).Idx → EReal) (fin : (⟨2, ![10000, 128]⟩ : Shape).Idx → EReal)
    (U : (⟨2, ![128, 128]⟩ : Shape).Idx → EReal) (n : Fin 10000) (k : Fin 32) (h : Fin 128) : EReal :=
  (∑ j : Fin 128, nh (ix3 n k j) * U (ix2 h j)) + fin (ix2 n h)

/-- The new cell state at node n, lane h. -/
def cellAt (nh nc : (⟨3, ![10000, 32, 128]⟩ : Shape).Idx → EReal) (fin : (⟨2, ![10000, 128]⟩ : Shape).Idx → EReal)
    (iou : (⟨2, ![10000, 384]⟩ : Shape).Idx → EReal) (U : (⟨2, ![128, 128]⟩ : Shape).Idx → EReal)
    (n : Fin 10000) (h : Fin 128) : EReal :=
  gate (iou (ix2 n (band0 h))) * Ideal.tanh (iou (ix2 n (band2 h)))
    + ∑ k : Fin 32, gate (forgetPre nh fin U n k h) * nc (ix3 n k h)

/-- The new hidden state at node n, lane h. -/
def hiddenAt (nh nc : (⟨3, ![10000, 32, 128]⟩ : Shape).Idx → EReal) (fin : (⟨2, ![10000, 128]⟩ : Shape).Idx → EReal)
    (iou : (⟨2, ![10000, 384]⟩ : Shape).Idx → EReal) (U : (⟨2, ![128, 128]⟩ : Shape).Idx → EReal)
    (n : Fin 10000) (h : Fin 128) : EReal :=
  gate (iou (ix2 n (band1 h))) * Ideal.tanh (cellAt nh nc fin iou U n h)

/-- The two result arrays, index by index. -/
def cellArr (nh nc : (⟨3, ![10000, 32, 128]⟩ : Shape).Idx → EReal) (fin : (⟨2, ![10000, 128]⟩ : Shape).Idx → EReal)
    (iou : (⟨2, ![10000, 384]⟩ : Shape).Idx → EReal) (U : (⟨2, ![128, 128]⟩ : Shape).Idx → EReal) :
    (⟨2, ![10000, 128]⟩ : Shape).Idx → EReal := fun i => cellAt nh nc fin iou U (i 0) (i 1)

def hiddenArr (nh nc : (⟨3, ![10000, 32, 128]⟩ : Shape).Idx → EReal) (fin : (⟨2, ![10000, 128]⟩ : Shape).Idx → EReal)
    (iou : (⟨2, ![10000, 384]⟩ : Shape).Idx → EReal) (U : (⟨2, ![128, 128]⟩ : Shape).Idx → EReal) :
    (⟨2, ![10000, 128]⟩ : Shape).Idx → EReal := fun i => hiddenAt nh nc fin iou U (i 0) (i 1)

end Cert.TreeCell

end
-- ==== Proof.RefValue.lean ====
/-
  The reference program computes the cell: its two result stages, read one operation at a time through the
  generated read-at-an-index lemmas, are the specification's two arrays.  The reshapes to and from the
  [10000, 4096] and [320000, 128] layouts only renumber (node, child, lane) row-major; the broadcast of the
  per-node input over the 32 children forgets the child; the quotient 1 / (1 + exp(-x)) is the gate.
-/
import proofs.«132036_g57578331570339_cont_sun_m_444_20_alg».proof.Proof.Gen.ReferenceIdeal.Read
import proofs.«132036_g57578331570339_cont_sun_m_444_20_alg».proof.Proof.Spec

noncomputable section

namespace Cert.TreeCell.Ref

open Cert.ReferenceIdeal Cert.ReferenceIdeal.Gen Cert.ReferenceIdeal.Read
open Idealize.ShloMosaic Idealize.ShloMosaic.ValueIdx Cert.TreeCell

/-! ## The layout operations' index maps at (node, child, lane) -/

/-- Position `k * 128 + h` of a node's 4096-wide row. -/
abbrev flat (k : Fin 32) (h : Fin 128) : Fin 4096 := ⟨k.val * 128 + h.val, by have := k.isLt; have := h.isLt; omega⟩

/-- Row `n * 32 + k` of the [320000, 128] layout. -/
abbrev row (n : Fin 10000) (k : Fin 32) : Fin 320000 := ⟨n.val * 32 + k.val, by have := n.isLt; have := k.isLt; omega⟩

theorem idx14 (n : Fin 10000) (k : Fin 32) (h : Fin 128) : idx_main_v14 (ix3 n k h) = ix2 n (flat k h) := by
  have hn := n.isLt; have hk := k.isLt; have hh := h.isLt
  funext a; apply Fin.ext
  match a with
  | ⟨0, _⟩ => show ((n.val * 32 + k.val) * 128 + h.val) / 4096 = n.val; omega
  | ⟨1, _⟩ => show ((n.val * 32 + k.val) * 128 + h.val) % 4096 = k.val * 128 + h.val; omega

theorem idx3 (n : Fin 10000) (k : Fin 32) (h : Fin 128) : idx_main_v3 (ix2 n (flat k h)) = ix2 (row n k) h := by
  have hn := n.isLt; have hk := k.isLt; have hh := h.isLt
  funext a; apply Fin.ext
  match a with
  | ⟨0, _⟩ => show (n.val * 4096 + (k.val * 128 + h.val)) / 128 = n.val * 32 + k.val; omega
  | ⟨1, _⟩ => show (n.val * 4096 + (k.val * 128 + h.val)) % 128 = h.val; omega

theorem lidx (r : Fin 320000) (h j : Fin 128) : lidx_main_v2 (ix2 r h) j = ix2 r j := by
  funext a; apply Fin.ext
  match a with
  | ⟨0, _⟩ => rfl
  | ⟨1, _⟩ => rfl

theorem ridx (r : Fin 320000) (h j : Fin 128) : ridx_main_v2 (ix2 r h) j = ix2 j h := by
  funext a; apply Fin.ext
  match a with
  | ⟨0, _⟩ => rfl
  | ⟨1, _⟩ => rfl

theorem idx0 (n : Fin 10000) (k : Fin 32) (j : Fin 128) : idx_main_v0 (ix2 (row n k) j) = ix3 n k j := by
  have hn := n.isLt; have hk := k.isLt; have hj := j.isLt
  funext a; apply Fin.ext
  match a with
  | ⟨0, _⟩ => show ((n.val * 32 + k.val) * 128 + j.val) / 4096 = n.val; omega
  | ⟨1, _⟩ => show ((n.val * 32 + k.val) * 128 + j.val) / 128 % 32 = k.val; omega
  | ⟨2, _⟩ => show ((n.val * 32 + k.val) * 128 + j.val) % 128 = j.val; omega

theorem idx1 (j h : Fin 128) : idx_main_v1 (ix2 j h) = ix2 h j := by
  funext a; apply Fin.ext
  match a with
  | ⟨0, _⟩ => rfl
  | ⟨1, _⟩ => rfl

theorem idx6 (n : Fin 10000) (k : Fin 32) (h : Fin 128) :
    idx_main_v6 (ix2 n (flat k h)) = ix4 (⟨0, Nat.one_pos⟩ : Fin 1) n k h := by
  have hn := n.isLt; have hk := k.isLt; have hh := h.isLt
  funext a; apply Fin.ext
  match a with
  | ⟨0, _⟩ => rfl
  | ⟨1, _⟩ => show (n.val * 4096 + (k.val * 128 + h.val)) / 4096 % 10000 = n.val; omega
  | ⟨2, _⟩ => show (n.val * 4096 + (k.val * 128 + h.val)) / 128 % 32 = k.val; omega
  | ⟨3, _⟩ => show (n.val * 4096 + (k.val * 128 + h.val)) % 128 = h.val; omega

theorem idx5 (n : Fin 10000) (k : Fin 32) (h : Fin 128) :
    idx_main_v5 (ix4 (⟨0, Nat.one_pos⟩ : Fin 1) n k h) = ix4 (⟨0, Nat.one_pos⟩ : Fin 1) n (⟨0, Nat.one_pos⟩ : Fin 1) h := by
  funext a; apply Fin.ext
  match a with
  | ⟨0, _⟩ => rfl
  | ⟨1, _⟩ => rfl
  | ⟨2, _⟩ => rfl
  | ⟨3, _⟩ => rfl

theorem idx4 (n : Fin 10000) (h : Fin 128) :
    idx_main_v4 (ix4 (⟨0, Nat.one_pos⟩ : Fin 1) n (⟨0, Nat.one_pos⟩ : Fin 1) h) = ix2 n h := by
  have hn := n.isLt; have hh := h.isLt
  funext a; apply Fin.ext
  match a with
  | ⟨0, _⟩ => show (((0 * 10000 + n.val) * 1 + 0) * 128 + h.val) / 128 = n.val; omega
  | ⟨1, _⟩ => show (((0 * 10000 + n.val) * 1 + 0) * 128 + h.val) % 128 = h.val; omega

theorem idx16 (n : Fin 10000) (h : Fin 128) (k : Fin 32) : idx_main_v16 (ix2 n h) k = ix3 n k h := by
  funext a; apply Fin.ext
  match a with
  | ⟨0, _⟩ => rfl
  | ⟨1, _⟩ => rfl
  | ⟨2, _⟩ => rfl

theorem idx17 (n : Fin 10000) (h : Fin 128) : idx_main_v17 (ix2 n h) = ix2 n (band0 h) := by
  funext a; apply Fin.ext
  match a with
  | ⟨0, _⟩ => rfl
  | ⟨1, _⟩ => rfl

theorem idx18 (n : Fin 10000) (h : Fin 128) : idx_main_v18 (ix2 n h) = ix2 n (band1 h) := by
  funext a; apply Fin.ext
  match a with
  | ⟨0, _⟩ => rfl
  | ⟨1, _⟩ => show 128 + h.val = h.val + 128; omega

theorem idx19 (n : Fin 10000) (h : Fin 128) : idx_main_v19 (ix2 n h) = ix2 n (band2 h) := by
  funext a; apply Fin.ext
  match a with
  | ⟨0, _⟩ => rfl
  | ⟨1, _⟩ => show 256 + h.val = h.val + 256; omega

/-! ## The stages -/

/-- The forget gate of child k of node n at lane h, as the reference lays it out. -/
theorem forget_eq (x0 : (⟨S10000x32x128, .f32⟩ : BufTy).Contents (Elt Ideal)) (x2 : (⟨S10000x128, .f32⟩ : BufTy).Contents (Elt Ideal))
    (x4 : (⟨S128x128, .f32⟩ : BufTy).Contents (Elt Ideal)) (n : Fin 10000) (k : Fin 32) (h : Fin 128) :
    val_main_v14 (F := Ideal) x0 x2 x4 (ix3 n k h) = gate (forgetPre x0 x2 x4 n k h) := by
  rw [val_main_v14_apply, idx14, val_main_v13_apply, val_main_v12_apply, val_main_cst_0_apply, val_main_v11_apply,
    val_main_v10_apply, val_main_cst_apply, val_main_v9_apply, val_main_v8_apply, val_main_v7_apply, val_main_v3_apply, idx3,
    val_main_v2_apply, val_main_v6_apply, idx6, val_main_v5_apply, idx5, val_main_v4_apply, idx4]
  simp only [val_main_v0_apply, val_main_v1_apply, lidx, ridx, idx0, idx1]
  rw [← quotient_eq_gate]
  rfl

/-- The new cell state. -/
theorem cell_eq (x0 x1 : (⟨S10000x32x128, .f32⟩ : BufTy).Contents (Elt Ideal)) (x2 : (⟨S10000x128, .f32⟩ : BufTy).Contents (Elt Ideal))
    (x3 : (⟨S10000x384, .f32⟩ : BufTy).Contents (Elt Ideal)) (x4 : (⟨S128x128, .f32⟩ : BufTy).Contents (Elt Ideal)) (i : S10000x128.Idx) :
    val_main_v34 (F := Ideal) x0 x1 x2 x3 x4 i = cellArr x0 x1 x2 x3 x4 i := by
  obtain ⟨n, h, rfl⟩ : ∃ (n : Fin 10000) (h : Fin 128), i = ix2 n h := ⟨i 0, i 1, eq_ix2 i⟩
  rw [val_main_v34_apply, val_main_v33_apply, val_main_v25_apply, val_main_v24_apply, val_main_cst_3_apply, val_main_v23_apply,
    val_main_v22_apply, val_main_cst_2_apply, val_main_v21_apply, val_main_v20_apply, val_main_v17_apply, idx17,
    val_main_v32_apply, val_main_v19_apply, idx19, val_main_v16_apply, val_main_cst_1_apply]
  have hs : ∀ k : Fin 32, val_main_v15 (F := Ideal) x0 x1 x2 x4 (idx_main_v16 (ix2 n h) k)
      = gate (forgetPre x0 x2 x4 n k h) * x1 (ix3 n k h) := fun k => by
    rw [idx16, val_main_v15_apply, forget_eq]; rfl
  rw [Finset.sum_congr rfl fun k _ => hs k]
  unfold cellArr cellAt
  rw [← quotient_eq_gate]
  show Ideal.div _ _ * _ + (Ideal.ofBits .f32 0x00000000#32 + _) = _
  rw [Ideal.ofBits_zero_f32, zero_add]
  rfl

/-- The new hidden state. -/
theorem hidden_eq (x0 x1 : (⟨S10000x32x128, .f32⟩ : BufTy).Contents (Elt Ideal)) (x2 : (⟨S10000x128, .f32⟩ : BufTy).Contents (Elt Ideal))
    (x3 : (⟨S10000x384, .f32⟩ : BufTy).Contents (Elt Ideal)) (x4 : (⟨S128x128, .f32⟩ : BufTy).Contents (Elt Ideal)) (i : S10000x128.Idx) :
    val_main_v36 (F := Ideal) x0 x1 x2 x3 x4 i = hiddenArr x0 x1 x2 x3 x4 i := by
  obtain ⟨n, h, rfl⟩ : ∃ (n : Fin 10000) (h : Fin 128), i = ix2 n h := ⟨i 0, i 1, eq_ix2 i⟩
  rw [val_main_v36_apply, val_main_v31_apply, val_main_v30_apply, val_main_cst_5_apply, val_main_v29_apply, val_main_v28_apply,
    val_main_cst_4_apply, val_main_v27_apply, val_main_v26_apply, val_main_v18_apply, idx18, val_main_v35_apply, cell_eq]
  unfold hiddenArr hiddenAt
  rw [← quotient_eq_gate]
  rfl

/-- Both results as whole arrays. -/
theorem cell_arr (x0 x1 : (⟨S10000x32x128, .f32⟩ : BufTy).Contents (Elt Ideal)) (x2 : (⟨S10000x128, .f32⟩ : BufTy).Contents (Elt Ideal))
    (x3 : (⟨S10000x384, .f32⟩ : BufTy).Contents (Elt Ideal)) (x4 : (⟨S128x128, .f32⟩ : BufTy).Contents (Elt Ideal)) :
    val_main_v34 (F := Ideal) x0 x1 x2 x3 x4 = cellArr x0 x1 x2 x3 x4 := funext fun i => cell_eq x0 x1 x2 x3 x4 i

theorem hidden_arr (x0 x1 : (⟨S10000x32x128, .f32⟩ : BufTy).Contents (Elt Ideal)) (x2 : (⟨S10000x128, .f32⟩ : BufTy).Contents (Elt Ideal))
    (x3 : (⟨S10000x384, .f32⟩ : BufTy).Contents (Elt Ideal)) (x4 : (⟨S128x128, .f32⟩ : BufTy).Contents (Elt Ideal)) :
    val_main_v36 (F := Ideal) x0 x1 x2 x3 x4 = hiddenArr x0 x1 x2 x3 x4 := funext fun i => hidden_eq x0 x1 x2 x3 x4 i

end Cert.TreeCell.Ref

end
-- ==== Proof.Body.lean ====
/-
  One grid point's arithmetic, read at a block index.

  At a grid point the body holds a block of 400 nodes: the 12800 x 128 children rows (row p * 32 + k is
  child k of the block's node p), the 400 x 128 per-node inputs, the 400 x 384 gate columns and the whole
  128 x 128 weight.  At block node p and lane q the body's two stored values are

    cell   = gate(iou[p, q]) * tanh(iou[p, 256 + q]) + sum over k of gate(pre p k q) * nc[p * 32 + k, q]
    hidden = gate(iou[p, 128 + q]) * tanh(cell)
    pre p k q = (sum over j of nh[p * 32 + k, j] * U[q, j]) + fin[p, q]

  The matrix product contracts the SECOND axis of both operands (children rows times the weight's rows); the
  reshape [12800, 128] -> [400, 32, 128] is row-major, so (p, k, q) reads row p * 32 + k; the per-node input is
  broadcast over the 32 children; the sum over children is the reduction of the middle axis.
-/
import proofs.«132036_g57578331570339_cont_sun_m_444_20_alg».proof.Proof.Gen.KernelIdeal.Value
import proofs.«132036_g57578331570339_cont_sun_m_444_20_alg».proof.Proof.Spec
import Idealize.ShloMosaic.Lib.ValueIdx
import Idealize.ShloMosaic.Lib.Pipeline.Value
import Idealize.ShloMosaic.PureOps.Ideal.Laws

noncomputable section

namespace Cert.TreeCell.Body

open Cert.KernelIdeal Cert.KernelIdeal.Gen Cert.KernelIdeal.Value
open Idealize.ShloMosaic Idealize.ShloMosaic.ValueIdx Cert.TreeCell

/-- Row `p * 32 + k` of a block's children rows: child k of block node p. -/
abbrev brow (p : Fin 400) (k : Fin 32) : Fin 12800 := ⟨p.val * 32 + k.val, by have := p.isLt; have := k.isLt; omega⟩

/-! ## The product of the children rows with the weight's rows -/

theorem lhs_row (i : S12800x128.Idx) (c : dot_S12800x128_S128x128_S12800x128_1_1_0_0_n_n.contr.Idx) : (dot_S12800x128_S128x128_S12800x128_1_1_0_0_n_n.lhsIdx i c 0).val = (i 0).val := by
  unfold DotDims.lhsIdx
  rw [dif_neg (show ¬(0 : Fin S12800x128.rank) ∈ dot_S12800x128_S128x128_S12800x128_1_1_0_0_n_n.lhsBatch by decide), dif_pos (show (0 : Fin S12800x128.rank) ∈ dot_S12800x128_S128x128_S12800x128_1_1_0_0_n_n.lhsNonContracting by decide)]
  rfl

theorem lhs_col (i : S12800x128.Idx) (c : dot_S12800x128_S128x128_S12800x128_1_1_0_0_n_n.contr.Idx) : (dot_S12800x128_S128x128_S12800x128_1_1_0_0_n_n.lhsIdx i c 1).val = (c ⟨0, by decide⟩).val :=
  dot_S12800x128_S128x128_S12800x128_1_1_0_0_n_n.lhsIdx_val_of_single rfl i c

theorem rhs_row (i : S12800x128.Idx) (c : dot_S12800x128_S128x128_S12800x128_1_1_0_0_n_n.contr.Idx) : (dot_S12800x128_S128x128_S12800x128_1_1_0_0_n_n.rhsIdx i c 0).val = (i 1).val := by
  unfold DotDims.rhsIdx
  rw [dif_neg (show ¬(0 : Fin S128x128.rank) ∈ dot_S12800x128_S128x128_S12800x128_1_1_0_0_n_n.rhsBatch by decide), dif_pos (show (0 : Fin S128x128.rank) ∈ dot_S12800x128_S128x128_S12800x128_1_1_0_0_n_n.rhsNonContracting by decide)]
  rfl

theorem rhs_col (i : S12800x128.Idx) (c : dot_S12800x128_S128x128_S12800x128_1_1_0_0_n_n.contr.Idx) : (dot_S12800x128_S128x128_S12800x128_1_1_0_0_n_n.rhsIdx i c 1).val = (c ⟨0, by decide⟩).val :=
  dot_S12800x128_S128x128_S12800x128_1_1_0_0_n_n.rhsIdx_val_of_single rfl i c

/-- Into the zero accumulator, the product at (r, q) is the sum over j of lhs[r, j] * rhs[q, j]. -/
theorem scores_apply (v0 : FVec Ideal S12800x128 .f32) (v2 : FVec Ideal S128x128 .f32) (r : Fin 12800) (q : Fin 128) :
    matmul dot_S12800x128_S128x128_S12800x128_1_1_0_0_n_n none v0 v2 (constant S12800x128 .f32 0x00000000#32) (ix2 r q)
      = ∑ j : Fin 128, v0 (ix2 r j) * v2 (ix2 q j) := by
  refine (Ideal.matmul_constant_zero_apply dot_S12800x128_S128x128_S12800x128_1_1_0_0_n_n none v0 v2 (ix2 r q)).trans ?_
  rw [← Equiv.sum_comp (contrEquiv1 dot_S12800x128_S128x128_S12800x128_1_1_0_0_n_n 128 rfl rfl).symm]
  refine Finset.sum_congr rfl fun j _ => ?_
  have hk := contrEquiv1_symm_val dot_S12800x128_S128x128_S12800x128_1_1_0_0_n_n 128 rfl rfl j
  have el : dot_S12800x128_S128x128_S12800x128_1_1_0_0_n_n.lhsIdx (ix2 r q) ((contrEquiv1 dot_S12800x128_S128x128_S12800x128_1_1_0_0_n_n 128 rfl rfl).symm j) = ix2 r j := funext fun a => Fin.ext (by
    match a with
    | ⟨0, _⟩ => exact lhs_row _ _
    | ⟨1, _⟩ => exact (lhs_col _ _).trans hk)
  have er : dot_S12800x128_S128x128_S12800x128_1_1_0_0_n_n.rhsIdx (ix2 r q) ((contrEquiv1 dot_S12800x128_S128x128_S12800x128_1_1_0_0_n_n 128 rfl rfl).symm j) = ix2 q j := funext fun a => Fin.ext (by
    match a with
    | ⟨0, _⟩ => exact rhs_row _ _
    | ⟨1, _⟩ => exact (rhs_col _ _).trans hk)
  rw [el, er]

/-! ## The layout operations -/

/-- The row-major reshape [12800, 128] -> [400, 32, 128] reads (p, k, q) at row p * 32 + k. -/
theorem split_rows_apply (v : FVec Ideal S12800x128 .f32) (h : S12800x128.ShapeCasts S400x32x128) (p : Fin 400) (k : Fin 32) (q : Fin 128) :
    shapeCast S400x32x128 v h (ix3 p k q) = v (ix2 (brow p k) q) :=
  shapeCast_apply v h (ix3 p k q) (ix2 (brow p k) q) (by
    rewrite [Shape.rowMajor_val_two, Shape.rowMajor_val_three]
    show (p.val * 32 + k.val) * 128 + q.val = (p.val * 32 + k.val) * 128 + q.val
    rfl)

/-- The per-node input, given a unit middle axis and broadcast over the children, reads (p, k, q) at (p, q). -/
theorem over_children_apply (v : FVec Ideal S400x128 .f32) (h : S400x128.ShapeCasts S400x1x128) (h' : S400x1x128.Broadcasts S400x32x128)
    (p : Fin 400) (k : Fin 32) (q : Fin 128) :
    broadcastTo S400x32x128 (shapeCast S400x1x128 v h) h' (ix3 p k q) = v (ix2 p q) := by
  refine (broadcastTo_apply (shapeCast S400x1x128 v h) h' (ix3 p k q) (ix3 p (⟨0, Nat.one_pos⟩ : Fin 1) q) fun a => ?_).trans ?_
  · match a with
    | ⟨0, _⟩ => show p.val = if (400 : Nat) = 1 then 0 else p.val; rw [if_neg (by decide)]
    | ⟨1, _⟩ => show 0 = if (1 : Nat) = 1 then 0 else k.val; rw [if_pos rfl]
    | ⟨2, _⟩ => show q.val = if (128 : Nat) = 1 then 0 else q.val; rw [if_neg (by decide)]
  · exact shapeCast_apply v h (ix3 p (⟨0, Nat.one_pos⟩ : Fin 1) q) (ix2 p q) (by
      rewrite [Shape.rowMajor_val_two, Shape.rowMajor_val_three]
      show p.val * 128 + q.val = (p.val * 1 + 0) * 128 + q.val
      omega)

/-! ## The block's values -/

/-- The forget gate's pre-activation of child k of block node p at lane q. -/
def blockPre (P1 : Vec Ideal S12800x128 .f32) (P2 : Vec Ideal S128x128 .f32) (P3 : Vec Ideal S400x128 .f32)
    (p : Fin 400) (k : Fin 32) (q : Fin 128) : EReal :=
  (∑ j : Fin 128, P1 (ix2 (brow p k) j) * P2 (ix2 q j)) + P3 (ix2 p q)

/-- The new cell state of block node p at lane q. -/
def blockCell (P0 : Vec Ideal S400x384 .f32) (P1 : Vec Ideal S12800x128 .f32) (P2 : Vec Ideal S128x128 .f32)
    (P3 : Vec Ideal S400x128 .f32) (P4 : Vec Ideal S12800x128 .f32) (p : Fin 400) (q : Fin 128) : EReal :=
  gate (P0 (ix2 p (band0 q))) * Ideal.tanh (P0 (ix2 p (band2 q)))
    + ∑ k : Fin 32, gate (blockPre P1 P2 P3 p k q) * P4 (ix2 (brow p k) q)

/-- The new hidden state of block node p at lane q. -/
def blockHidden (P0 : Vec Ideal S400x384 .f32) (P1 : Vec Ideal S12800x128 .f32) (P2 : Vec Ideal S128x128 .f32)
    (P3 : Vec Ideal S400x128 .f32) (P4 : Vec Ideal S12800x128 .f32) (p : Fin 400) (q : Fin 128) : EReal :=
  gate (P0 (ix2 p (band1 q))) * Ideal.tanh (blockCell P0 P1 P2 P3 P4 p q)

/-- The children's sum: the middle-axis reduction at (p, q) is the sum over the 32 children of the gated child state. -/
theorem children_sum_apply (P1 : Vec Ideal S12800x128 .f32) (P2 : Vec Ideal S128x128 .f32) (P3 : Vec Ideal S400x128 .f32)
    (P4 : Vec Ideal S12800x128 .f32) (p : Fin 400) (q : Fin 128) :
    k0_pay3 P1 P2 P3 P4 (ix2 p q) = ∑ k : Fin 32, gate (blockPre P1 P2 P3 p k q) * P4 (ix2 (brow p k) q) := by
  unfold k0_pay3
  refine (Ideal.multiReduction_add_single (φ := .f32) _ 0x00000000#32 reduces_S400x32x128_S400x128 (.inl rfl) rfl (ix2 p q)).trans ?_
  show ∑ k : Fin 32, _ = _
  refine Finset.sum_congr rfl fun k _ => ?_
  have hl : (reduces_S400x32x128_S400x128).lift (ix2 p q) k = ix3 p k q := funext fun a => Fin.ext (by
    match a with
    | ⟨0, _⟩ => rfl
    | ⟨1, _⟩ => rfl
    | ⟨2, _⟩ => rfl)
  rw [hl]
  show (Ideal.ofBits .f32 0x3F000000#32 * Ideal.tanh (Ideal.ofBits .f32 0x3F000000#32
        * ((shapeCast S400x32x128 (matmul (F := Ideal) dot_S12800x128_S128x128_S12800x128_1_1_0_0_n_n none (shapeCast S12800x128 P1 _) P2 (constant (F := Ideal) S12800x128 .f32 0x00000000#32)) _) (ix3 p k q)
          + (broadcastTo S400x32x128 (shapeCast S400x1x128 P3 _) _) (ix3 p k q)))
      + Ideal.ofBits .f32 0x3F000000#32) * (shapeCast S400x32x128 (shapeCast S12800x128 P4 _) _) (ix3 p k q) = _
  rw [split_rows_apply, over_children_apply, split_rows_apply, shapeCast_self, shapeCast_self, scores_apply]
  rfl

/-! ## The two stored blocks -/

theorem cell_iou0 (p : Fin 400) (q : Fin 128) : ix6_0 (ix2 p q) = ix2 p (band0 q) := by
  funext a; apply Fin.ext
  match a with
  | ⟨0, _⟩ => rfl
  | ⟨1, _⟩ => rfl

theorem cell_iou2 (p : Fin 400) (q : Fin 128) : ix6_1 (ix2 p q) = ix2 p (band2 q) := by
  funext a; apply Fin.ext
  match a with
  | ⟨0, _⟩ => rfl
  | ⟨1, _⟩ => rfl

theorem cell_sum (p : Fin 400) (q : Fin 128) : ix6_2 (ix2 p q) = ix2 p q := by
  funext a; apply Fin.ext
  match a with
  | ⟨0, _⟩ => rfl
  | ⟨1, _⟩ => rfl

theorem hidden_iou1 (p : Fin 400) (q : Fin 128) : ix5_0 (ix2 p q) = ix2 p (band1 q) := by
  funext a; apply Fin.ext
  match a with
  | ⟨0, _⟩ => rfl
  | ⟨1, _⟩ => rfl

theorem hidden_iou0 (p : Fin 400) (q : Fin 128) : ix5_1 (ix2 p q) = ix2 p (band0 q) := by
  funext a; apply Fin.ext
  match a with
  | ⟨0, _⟩ => rfl
  | ⟨1, _⟩ => rfl

theorem hidden_iou2 (p : Fin 400) (q : Fin 128) : ix5_2 (ix2 p q) = ix2 p (band2 q) := by
  funext a; apply Fin.ext
  match a with
  | ⟨0, _⟩ => rfl
  | ⟨1, _⟩ => rfl

theorem hidden_sum (p : Fin 400) (q : Fin 128) : ix5_3 (ix2 p q) = ix2 p q := by
  funext a; apply Fin.ext
  match a with
  | ⟨0, _⟩ => rfl
  | ⟨1, _⟩ => rfl

/-- The cell-state block at (p, q). -/
theorem cell_block_apply (P0 : Vec Ideal S400x384 .f32) (P1 : Vec Ideal S12800x128 .f32) (P2 : Vec Ideal S128x128 .f32)
    (P3 : Vec Ideal S400x128 .f32) (P4 : Vec Ideal S12800x128 .f32) (p : Fin 400) (q : Fin 128) :
    E6 (F := Ideal) P0 P1 P2 P3 P4 (ix2 p q) = blockCell P0 P1 P2 P3 P4 p q := by
  show (Ideal.ofBits .f32 0x3F000000#32 * Ideal.tanh (Ideal.ofBits .f32 0x3F000000#32 * P0 (ix6_0 (ix2 p q))) + Ideal.ofBits .f32 0x3F000000#32)
      * Ideal.tanh (P0 (ix6_1 (ix2 p q))) + k0_pay3 P1 P2 P3 P4 (ix6_2 (ix2 p q)) = _
  rw [cell_iou0, cell_iou2, cell_sum, children_sum_apply]
  rfl

/-- The hidden-state block at (p, q). -/
theorem hidden_block_apply (P0 : Vec Ideal S400x384 .f32) (P1 : Vec Ideal S12800x128 .f32) (P2 : Vec Ideal S128x128 .f32)
    (P3 : Vec Ideal S400x128 .f32) (P4 : Vec Ideal S12800x128 .f32) (p : Fin 400) (q : Fin 128) :
    E5 (F := Ideal) P0 P1 P2 P3 P4 (ix2 p q) = blockHidden P0 P1 P2 P3 P4 p q := by
  show (Ideal.ofBits .f32 0x3F000000#32 * Ideal.tanh (Ideal.ofBits .f32 0x3F000000#32 * P0 (ix5_0 (ix2 p q))) + Ideal.ofBits .f32 0x3F000000#32)
      * Ideal.tanh ((Ideal.ofBits .f32 0x3F000000#32 * Ideal.tanh (Ideal.ofBits .f32 0x3F000000#32 * P0 (ix5_1 (ix2 p q))) + Ideal.ofBits .f32 0x3F000000#32)
        * Ideal.tanh (P0 (ix5_2 (ix2 p q))) + k0_pay3 P1 P2 P3 P4 (ix5_3 (ix2 p q))) = _
  rw [hidden_iou1, hidden_iou0, hidden_iou2, hidden_sum, children_sum_apply]
  rfl

/-! ## What the body leaves in the two output buffers -/

theorem origin : (![0, 0] : Fin 2 → Nat) = fun _ => 0 := funext fun a => by fin_cases a <;> rfl

/-- The cell-state buffer after the body, from the five loaded blocks. -/
theorem cell_point (x0 x1 : Vec Ideal S12800x128 .f32) (x2 : Vec Ideal S400x128 .f32) (x3 : Vec Ideal S400x384 .f32)
    (x4 : Vec Ideal S128x128 .f32) (y : S400x128.Idx) :
    out0_6 x0 x1 x2 x3 x4 y = blockCell x3 x0 x4 x2 x1 (y 0) (y 1) := by
  obtain ⟨p, q, rfl⟩ : ∃ (p : Fin 400) (q : Fin 128), y = ix2 p q := ⟨y 0, y 1, eq_ix2 y⟩
  unfold out0_6
  simp only [View.ld_unit_zero (S := S12800x128) origin, View.ld_unit_zero (S := S128x128) origin,
    View.ld_unit_zero (S := S400x128) origin, View.ld_unit_zero (S := S400x384) origin]
  exact (canon6_eq x3 x0 x4 x2 x1 (ix2 p q)).trans (cell_block_apply x3 x0 x4 x2 x1 p q)

/-- The hidden-state buffer after the body, from the five loaded blocks. -/
theorem hidden_point (x0 x1 : Vec Ideal S12800x128 .f32) (x2 : Vec Ideal S400x128 .f32) (x3 : Vec Ideal S400x384 .f32)
    (x4 : Vec Ideal S128x128 .f32) (y : S400x128.Idx) :
    out0_5 x0 x1 x2 x3 x4 y = blockHidden x3 x0 x4 x2 x1 (y 0) (y 1) := by
  obtain ⟨p, q, rfl⟩ : ∃ (p : Fin 400) (q : Fin 128), y = ix2 p q := ⟨y 0, y 1, eq_ix2 y⟩
  unfold out0_5
  simp only [View.ld_unit_zero (S := S12800x128) origin, View.ld_unit_zero (S := S128x128) origin,
    View.ld_unit_zero (S := S400x128) origin, View.ld_unit_zero (S := S400x384) origin]
  exact (canon5_eq x3 x0 x4 x2 x1 (ix2 p q)).trans (hidden_block_apply x3 x0 x4 x2 x1 p q)

end Cert.TreeCell.Body

end
-- ==== Proof.Blocks.lean ====
/-
  From blocks to the arrays.

  The grid has 25 points; at point t every moving window sits at block t along the rows and block 0 along the
  lanes, and the weight's window stays at block (0, 0).  So the block of point t holds nodes 400 t .. 400 t + 399:
  block node p is node 400 t + p, and its children rows p * 32 + k are rows (400 t + p) * 32 + k of the
  [320000, 128] arrays, which the host program made by a row-major reshape of the [10000, 32, 128] arguments —
  child k of that node.  Reading each block through these equations turns the body's values at a block index
  into the cell's values at the array index under it; the 25 blocks of 400 rows tile the 10000 rows, so each
  result array ends holding the cell's array everywhere.
-/
import proofs.«132036_g57578331570339_cont_sun_m_444_20_alg».proof.Proof.Gen.KernelIdeal.Value
import proofs.«132036_g57578331570339_cont_sun_m_444_20_alg».proof.Proof.Spec
import proofs.«132036_g57578331570339_cont_sun_m_444_20_alg».proof.Proof.Body
import Idealize.ShloMosaic.Lib.Pipeline.Value
import Idealize.ShloMosaic.Lib.StableHlo.Run
import Idealize.ShloMosaic.Lib.Tactic

noncomputable section

namespace Cert.TreeCell.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.TreeCell Cert.TreeCell.Body

variable (m : (ℓ : Loc nD τ sig) → Buf (Elt Ideal) ℓ) (ρ : Dev nD → PrngReg)

/-! ## Where each window's block sits -/

/-- The printed index maps, decided over the 25 grid points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Node `400 t + p`: block node p of grid point t. -/
def nodeOf (t : Fin cfg0.N) (p : Fin 400) : Fin 10000 :=
  ⟨t.val * 400 + p.val, by have := t.isLt; have h : cfg0.N = 25 := N_0; have := p.isLt; omega⟩

theorem nodeOf_val (t : Fin cfg0.N) (p : Fin 400) : (nodeOf t p).val = t.val * 400 + p.val := rfl

/-! ## The two reshaped arrays as the region finds them -/

theorem children_h (c : Dev nD) : (V m c main_v0 : S320000x128.Idx → EReal)
    = shapeCast S320000x128 (m ((c : Thread nD τ).loc main_arg0)) shapeCasts_S10000x32x128_S320000x128 := by
  dsimp only [Gen.V, Gen.hostOps0]; after_results; rfl

theorem children_c (c : Dev nD) : (V m c main_v1 : S320000x128.Idx → EReal)
    = shapeCast S320000x128 (m ((c : Thread nD τ).loc main_arg1)) shapeCasts_S10000x32x128_S320000x128 := by
  dsimp only [Gen.V, Gen.hostOps0]; after_results; rfl

/-- Row `n * 32 + k` of a reshaped array at lane j is the argument at (n, k, j). -/
theorem child_row (x : S10000x32x128.Idx → EReal) (r : S320000x128.Idx) (n : Fin 10000) (k : Fin 32) (j : Fin 128)
    (h0 : (r 0).val = n.val * 32 + k.val) (h1 : (r 1).val = j.val) :
    shapeCast S320000x128 x shapeCasts_S10000x32x128_S320000x128 r = x (ix3 n k j) :=
  shapeCast_apply x shapeCasts_S10000x32x128_S320000x128 r (ix3 n k j) (by
    rewrite [Shape.rowMajor_val_three, Shape.rowMajor_val_two]
    show (n.val * 32 + k.val) * 128 + j.val = (r 0).val * 128 + (r 1).val
    rw [h0, h1])

/-! ## Each input block read at a block index -/

theorem read_h (c : Dev nD) (t : Fin cfg0.N) (p : Fin 400) (k : Fin 32) (j : Fin 128) :
    (iblk m c 0 t : Vec Ideal S12800x128 .f32) (ix2 (brow p k) j) = ((m ((c : Thread nD τ).loc main_arg0)) : S10000x32x128.Idx → EReal) (ix3 (nodeOf t p) k j) := by
  obtain ⟨e00, e01, e10, e11, e20, e21, e30, e31, e40, e41, e50, e51, e60, e61⟩ := block_indices t
  unfold iblk
  rw [View.read_apply]
  show (V m c main_v0 : S320000x128.Idx → EReal) _ = _
  rw [children_h]
  refine child_row _ _ (nodeOf t p) k j ?_ ?_
  · show win0_0.index t (0 : Fin 2) * 12800 + 1 * (p.val * 32 + k.val) = (t.val * 400 + p.val) * 32 + k.val
    rw [e00]; omega
  · show win0_0.index t (1 : Fin 2) * 128 + 1 * j.val = j.val
    rw [e01]; omega

theorem read_c (c : Dev nD) (t : Fin cfg0.N) (p : Fin 400) (k : Fin 32) (j : Fin 128) :
    (iblk m c 1 t : Vec Ideal S12800x128 .f32) (ix2 (brow p k) j) = ((m ((c : Thread nD τ).loc main_arg1)) : S10000x32x128.Idx → EReal) (ix3 (nodeOf t p) k j) := by
  obtain ⟨e00, e01, e10, e11, e20, e21, e30, e31, e40, e41, e50, e51, e60, e61⟩ := block_indices t
  unfold iblk
  rw [View.read_apply]
  show (V m c main_v1 : S320000x128.Idx → EReal) _ = _
  rw [children_c]
  refine child_row _ _ (nodeOf t p) k j ?_ ?_
  · show win0_1.index t (0 : Fin 2) * 12800 + 1 * (p.val * 32 + k.val) = (t.val * 400 + p.val) * 32 + k.val
    rw [e10]; omega
  · show win0_1.index t (1 : Fin 2) * 128 + 1 * j.val = j.val
    rw [e11]; omega

theorem read_fin (c : Dev nD) (t : Fin cfg0.N) (p : Fin 400) (q : Fin 128) :
    (iblk m c 2 t : Vec Ideal S400x128 .f32) (ix2 p q) = ((m ((c : Thread nD τ).loc main_arg2)) : S10000x128.Idx → EReal) (ix2 (nodeOf t p) q) := by
  obtain ⟨e00, e01, e10, e11, e20, e21, e30, e31, e40, e41, e50, e51, e60, e61⟩ := block_indices t
  unfold iblk
  rw [View.read_apply]
  show V m c main_arg2 _ = _
  rw [V_main_arg2]
  refine congrArg _ (funext fun a => Fin.ext ?_)
  match a with
  | ⟨0, _⟩ => show win0_2.index t (0 : Fin 2) * 400 + 1 * p.val = t.val * 400 + p.val; rw [e20]; omega
  | ⟨1, _⟩ => show win0_2.index t (1 : Fin 2) * 128 + 1 * q.val = q.val; rw [e21]; omega

theorem read_iou (c : Dev nD) (t : Fin cfg0.N) (p : Fin 400) (b : Fin 384) :
    (iblk m c 3 t : Vec Ideal S400x384 .f32) (ix2 p b) = ((m ((c : Thread nD τ).loc main_arg3)) : S10000x384.Idx → EReal) (ix2 (nodeOf t p) b) := by
  obtain ⟨e00, e01, e10, e11, e20, e21, e30, e31, e40, e41, e50, e51, e60, e61⟩ := block_indices t
  unfold iblk
  rw [View.read_apply]
  show V m c main_arg3 _ = _
  rw [V_main_arg3]
  refine congrArg _ (funext fun a => Fin.ext ?_)
  match a with
  | ⟨0, _⟩ => show win0_3.index t (0 : Fin 2) * 400 + 1 * p.val = t.val * 400 + p.val; rw [e30]; omega
  | ⟨1, _⟩ => show win0_3.index t (1 : Fin 2) * 384 + 1 * b.val = b.val; rw [e31]; omega

theorem read_U (c : Dev nD) (t : Fin cfg0.N) (q j : Fin 128) :
    (iblk m c 4 t : Vec Ideal S128x128 .f32) (ix2 q j) = ((m ((c : Thread nD τ).loc main_arg4)) : S128x128.Idx → EReal) (ix2 q j) := by
  obtain ⟨e00, e01, e10, e11, e20, e21, e30, e31, e40, e41, e50, e51, e60, e61⟩ := block_indices t
  unfold iblk
  rw [View.read_apply]
  show V m c main_arg4 _ = _
  rw [V_main_arg4]
  refine congrArg _ (funext fun a => Fin.ext ?_)
  match a with
  | ⟨0, _⟩ => show win0_4.index t (0 : Fin 2) * 128 + 1 * q.val = q.val; rw [e40]; omega
  | ⟨1, _⟩ => show win0_4.index t (1 : Fin 2) * 128 + 1 * j.val = j.val; rw [e41]; omega

/-! ## A block's values are the cell's values at the nodes under it -/

theorem cell_of_block (c : Dev nD) (t : Fin cfg0.N) (p : Fin 400) (q : Fin 128) :
    blockCell (iblk m c 3 t) (iblk m c 0 t) (iblk m c 4 t) (iblk m c 2 t) (iblk m c 1 t) p q
      = cellAt (m ((c : Thread nD τ).loc main_arg0)) (m ((c : Thread nD τ).loc main_arg1)) (m ((c : Thread nD τ).loc main_arg2)) (m ((c : Thread nD τ).loc main_arg3)) (m ((c : Thread nD τ).loc main_arg4)) (nodeOf t p) q := by
  unfold blockCell cellAt blockPre forgetPre
  simp only [read_h, read_c, read_fin, read_iou, read_U]

theorem hidden_of_block (c : Dev nD) (t : Fin cfg0.N) (p : Fin 400) (q : Fin 128) :
    blockHidden (iblk m c 3 t) (iblk m c 0 t) (iblk m c 4 t) (iblk m c 2 t) (iblk m c 1 t) p q
      = hiddenAt (m ((c : Thread nD τ).loc main_arg0)) (m ((c : Thread nD τ).loc main_arg1)) (m ((c : Thread nD τ).loc main_arg2)) (m ((c : Thread nD τ).loc main_arg3)) (m ((c : Thread nD τ).loc main_arg4)) (nodeOf t p) q := by
  unfold blockHidden hiddenAt
  rw [cell_of_block, read_iou]

/-! ## What each point writes back -/

/-- Point t writes back block t of the cell-state array. -/
theorem flushed_cell (c : Dev nD) (t : Fin cfg0.N) :
    (dats m 0 c).flushed 6 t = ((cfg0.win 6).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨e00, e01, e10, e11, e20, e21, e30, e31, e40, e41, e50, e51, e60, e61⟩ := block_indices t
  rw [Value.flushed6]
  funext y
  show out0_6 (iblk m c 0 t) (iblk m c 1 t) (iblk m c 2 t) (iblk m c 3 t) (iblk m c 4 t) y
    = cellArr (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y)
  refine (cell_point _ _ _ _ _ y).trans ?_
  refine (cell_of_block m c t (y 0) (y 1)).trans ?_
  show cellAt _ _ _ _ _ (nodeOf t (y 0)) (y 1) = cellAt _ _ _ _ _ ((((cfg0.win 6).blk t).view.emb y) 0) ((((cfg0.win 6).blk t).view.emb y) 1)
  have h0 : nodeOf t (y 0) = (((cfg0.win 6).blk t).view.emb y) 0 := Fin.ext (by
    show t.val * 400 + (y 0).val = win0_6.index t (0 : Fin 2) * 400 + 1 * (y 0).val
    rw [e60]; omega)
  have h1 : (y 1) = (((cfg0.win 6).blk t).view.emb y) 1 := Fin.ext (by
    show (y 1).val = win0_6.index t (1 : Fin 2) * 128 + 1 * (y 1).val
    rw [e61]; omega)
  rw [h0, h1]

/-- Point t writes back block t of the hidden-state array. -/
theorem flushed_hidden (c : Dev nD) (t : Fin cfg0.N) :
    (dats m 0 c).flushed 5 t = ((cfg0.win 5).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨e00, e01, e10, e11, e20, e21, e30, e31, e40, e41, e50, e51, e60, e61⟩ := block_indices t
  rw [Value.flushed5]
  funext y
  show out0_5 (iblk m c 0 t) (iblk m c 1 t) (iblk m c 2 t) (iblk m c 3 t) (iblk m c 4 t) y
    = hiddenArr (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y)
  refine (hidden_point _ _ _ _ _ y).trans ?_
  refine (hidden_of_block m c t (y 0) (y 1)).trans ?_
  show hiddenAt _ _ _ _ _ (nodeOf t (y 0)) (y 1) = hiddenAt _ _ _ _ _ ((((cfg0.win 5).blk t).view.emb y) 0) ((((cfg0.win 5).blk t).view.emb y) 1)
  have h0 : nodeOf t (y 0) = (((cfg0.win 5).blk t).view.emb y) 0 := Fin.ext (by
    show t.val * 400 + (y 0).val = win0_5.index t (0 : Fin 2) * 400 + 1 * (y 0).val
    rw [e50]; omega)
  have h1 : (y 1) = (((cfg0.win 5).blk t).view.emb y) 1 := Fin.ext (by
    show (y 1).val = win0_5.index t (1 : Fin 2) * 128 + 1 * (y 1).val
    rw [e51]; omega)
  rw [h0, h1]

/-! ## The 25 blocks tile the rows -/

theorem mem_block_cell (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2_1).slice (win0_6.rect t)).set ↔ _
  rw [View.set_slice_whole, Rect.mem_set_unit]
  exact Iff.rfl

theorem mem_block_hidden (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2_0).slice (win0_5.rect t)).set ↔ _
  rw [View.set_slice_whole, Rect.mem_set_unit]
  exact Iff.rfl

/-- Row r lies in the block of point r / 400. -/
theorem cover_cell (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨e00, e01, e10, e11, e20, e21, e30, e31, e40, e41, e50, e51, e60, e61⟩ := block_indices t
  refine ⟨t, flush0_6 t, ?_⟩
  rw [mem_block_cell]
  intro a
  match a with
  | ⟨0, _⟩ =>
    show win0_6.index t (0 : Fin 2) * 400 ≤ (i 0).val ∧ (i 0).val < win0_6.index t (0 : Fin 2) * 400 + 400
    rw [e60, ht]; omega
  | ⟨1, _⟩ =>
    show win0_6.index t (1 : Fin 2) * 128 ≤ (i 1).val ∧ (i 1).val < win0_6.index t (1 : Fin 2) * 128 + 128
    rw [e61]; omega

theorem cover_hidden (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨e00, e01, e10, e11, e20, e21, e30, e31, e40, e41, e50, e51, e60, e61⟩ := block_indices t
  refine ⟨t, flush0_5 t, ?_⟩
  rw [mem_block_hidden]
  intro a
  match a with
  | ⟨0, _⟩ =>
    show win0_5.index t (0 : Fin 2) * 400 ≤ (i 0).val ∧ (i 0).val < win0_5.index t (0 : Fin 2) * 400 + 400
    rw [e50, ht]; omega
  | ⟨1, _⟩ =>
    show win0_5.index t (1 : Fin 2) * 128 ≤ (i 1).val ∧ (i 1).val < win0_5.index t (1 : Fin 2) * 128 + 128
    rw [e51]; omega

/-! ## The arrays after the run -/

theorem final_cell (c : Dev nD) : (dats m 0 c).arrAt 6 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (cellArr (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_cell m c t) cover_cell

theorem final_hidden (c : Dev nD) : (dats m 0 c).arrAt 5 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (hiddenArr (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_hidden m c t) cover_hidden

/-- The kernel's run, read: the two result arrays hold the cell's arrays, the arguments are unchanged. -/
theorem run : θ_run defs (onTc (τ := τ) (main (F := Ideal))) ⟨m, fun _ => 0, ρ⟩ fun r => ∀ c : Dev nD,
      r.2.mem ((c : Thread nD τ).loc main_v2_0) = hiddenArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v2_1) = cellArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (Value.run_blocks m ρ)

end Cert.TreeCell.Kernel

end
-- ==== Proof.lean ====
/-
  A child-sum tree-LSTM cell over 10000 nodes of 32 children and 128 lanes, computed block by block
  (400 nodes per grid point) by one kernel, against the same cell written with whole-array operations.

  Both programs compute, for node n and lane h,
    c[n,h] = gate(iou[n,h]) * tanh(iou[n,256+h]) + sum over the children k of gate(nh[n,k,:] . U[h,:] + fin[n,h]) * nc[n,k,h]
    h[n,h] = gate(iou[n,128+h]) * tanh(c[n,h])
  and return (h, c).  They differ in three ways, none of which changes a value on the extended reals:
  the kernel spells the logistic gate 1/2 * tanh(x/2) + 1/2 where the reference spells it 1 / (1 + exp(-x))
  (one function, at the infinities too: Proof/Spec.lean); the kernel multiplies the children rows by the weight's
  rows directly where the reference transposes the weight first (the same sum over j); and the kernel works on the
  [320000, 128] row-major layout of the children, 400 nodes at a time, where the reference reshapes whole arrays
  (the same elements under another numbering: Proof/Blocks.lean, Proof/RefValue.lean).  No law used needs a
  finite input, so the precondition is not opened.

  Proof/Spec.lean states the cell as one function of the five arrays; Proof/RefValue.lean shows the reference's two
  results are that function; Proof/Body.lean reads the kernel body's stored values at a block index;
  Proof/Blocks.lean carries them from the blocks to the arrays.  Here the five claims are assembled.
-/
import proofs.«132036_g57578331570339_cont_sun_m_444_20_alg».proof.Defs
import proofs.«132036_g57578331570339_cont_sun_m_444_20_alg».proof.Proof.Gen.Kernel
import proofs.«132036_g57578331570339_cont_sun_m_444_20_alg».proof.Proof.Gen.Kernel.Frame
import proofs.«132036_g57578331570339_cont_sun_m_444_20_alg».proof.Proof.Gen.KernelIdeal
import proofs.«132036_g57578331570339_cont_sun_m_444_20_alg».proof.Proof.Gen.KernelIdeal.Frame
import proofs.«132036_g57578331570339_cont_sun_m_444_20_alg».proof.Proof.Gen.KernelIdeal.Value
import proofs.«132036_g57578331570339_cont_sun_m_444_20_alg».proof.Proof.Gen.ReferenceIdeal
import proofs.«132036_g57578331570339_cont_sun_m_444_20_alg».proof.Proof.Gen.ReferenceIdeal.Run
import proofs.«132036_g57578331570339_cont_sun_m_444_20_alg».proof.Proof.Gen.ReferenceIdeal.Read
import proofs.«132036_g57578331570339_cont_sun_m_444_20_alg».proof.Proof.Gen.Pre_finite_inputs
import proofs.«132036_g57578331570339_cont_sun_m_444_20_alg».proof.Proof.Spec
import proofs.«132036_g57578331570339_cont_sun_m_444_20_alg».proof.Proof.RefValue
import proofs.«132036_g57578331570339_cont_sun_m_444_20_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, both programs end with the hidden-state array and the cell-state array of the
    one cell function. -/
theorem algebraic : Cert.algebraic_KernelIdeal_ReferenceIdeal := by
  intro m ρ m' ρ' _ hagree
  refine ⟨fun c => Cert.TreeCell.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.TreeCell.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.TreeCell.Kernel.run m ρ, ?_⟩
  refine (θ_run Cert.ReferenceIdeal.defs _ _).mono (fun _ h c => ?_) (Cert.ReferenceIdeal.Value.run (F := Ideal) m' ρ')
  obtain ⟨hh, hc, hargs⟩ := h c
  obtain ⟨a0, a1, a2, a3, a4⟩ := hagree c
  refine ⟨?_, ?_, hargs⟩
  · rw [hh, Cert.ReferenceIdeal.Read.val_main_v36_eq, Cert.TreeCell.Ref.hidden_arr, a0, a1, a2, a3, a4]
  · rw [hc, Cert.ReferenceIdeal.Read.val_main_v34_eq, Cert.TreeCell.Ref.cell_arr, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
